-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x32x256 : Shape := ⟨3, ![256, 32, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x32x256 : S_.BroadcastsInDim S256x32x256 (![] : Fin 0 → Fin S256x32x256.rank)
  reducesTo_S256x32x256_S_d0_1_2 : S256x32x256.ReducesTo [0, 1, 2] S_

variable [Facts]

def fn {F : FTy → Type} [FloatOps F] (main_arg0 : FVec F S2048x256 .f32) (main_arg1 : FVec F S256x32x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x32x256 .f32 := Host.absf main_arg1
  let main_cst_0 : FVec F S_ .f32 := constant S_ .f32 0x7F800000#32
  let main_v5 : FVec F S256x32x256 .f32 := broadcastInDim S256x32x256 ![] bcast_S_S256x32x256 main_cst_0
  let main_v6 : IVec S256x32x256 1 := cmpf .olt main_v4 main_v5
  let main_c_1 : IVec S_ 1 := constantI S_ 1 1#1
  let main_v7 : IVec S_ 1 := (fun x v => Host.reduce IntOp.andi x v reducesTo_S256x32x256_S_d0_1_2 h_S_) main_v6 main_c_1
  let main_v8 : IVec S_ 1 := andi main_v3 main_v7
  main_v8
-- ==== Kernel.lean ====
abbrev S2048x256 : Shape := ⟨2, ![2048, 256]⟩
abbrev S256x32x256 : Shape := ⟨3, ![256, 32, 256]⟩
abbrev S32x256x256 : Shape := ⟨3, ![32, 256, 256]⟩
abbrev S8192x256 : Shape := ⟨2, ![8192, 256]⟩
abbrev S256x256 : Shape := ⟨2, ![256, 256]⟩
abbrev S256x2048 : Shape := ⟨2, ![256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x32x256, .f32⟩
  | .hbm, ⟨2, _⟩ => ⟨S32x256x256, .f32⟩
  | .hbm, ⟨3, _⟩ => ⟨S8192x256, .f32⟩
  | .hbm, ⟨4, _⟩ => ⟨S8192x256, .bf16⟩
  | .hbm, ⟨5, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S8192x256, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_12 : BitVec 32 := 0#32
  let c4_i32 : BitVec 32 := 4#32
  let v45 : BitVec 32 := Scalar.addi c0_i32_12 c4_i32
  let c1_i32_13 : BitVec 32 := 1#32
  ⟨c0_i32_12, v45, c1_i32_13⟩
def k0_mult1 (k0_t1 : Fin k0_t1_loop.trips) : BitVec 32 :=
  let c0_i32_12 : BitVec 32 := 0#32
  let c1_i32_13 : BitVec 32 := 1#32
  let arg5 : BitVec 32 := Scf.iv c0_i32_12 c1_i32_13 k0_t1
  let c2048_i32 : BitVec 32 := 2048#32
  let v65 : BitVec 32 := Scalar.muli arg5 c2048_i32
  v65
def k0_off1 (k0_t1 : Fin k0_t1_loop.trips) : Fin 2 → Nat :=
  let c0_i32_12 : BitVec 32 := 0#32
  let c1_i32_13 : BitVec 32 := 1#32
  let arg5 : BitVec 32 := Scf.iv c0_i32_12 c1_i32_13 k0_t1
  let c2048_i32 : BitVec 32 := 2048#32
  let v65 : BitVec 32 := Scalar.muli arg5 c2048_i32
  let v66 : BitVec 32 := v65
  let v67 : Index := Scalar.indexCast v66
  let c0_23 : Index := 0#32
  ![v67.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x32x256_S32x256x256_1_0_2 : S256x32x256.Transposes [1, 0, 2] S32x256x256
  shapeCasts_S32x256x256_S8192x256 : S32x256x256.ShapeCasts S8192x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  concatenates_S256x256_S256x256_S256x256_S256x256_S256x256_S256x256_S256x256_S256x256_S256x2048_d1 : Shape.Concatenates [S256x256, S256x256, S256x256, S256x256, S256x256, S256x256, S256x256, S256x256] S256x2048 1
  iota_S256x2048_d1_w32 : S256x2048.Iotas .tc 32 [1]
  natLt_1_32 : 1 < 32
  shapeCasts_S256x256_S256x256 : S256x256.ShapeCasts S256x256
  h_S2048x256 : 0 < S2048x256.numel
  shapeCasts_S2048x256_S2048x256 : S2048x256.ShapeCasts S2048x256
  dot_S256x2048_S2048x256_S256x256_1_0_0_1_n_n_wf : DotDims.WF S256x2048 S2048x256 S256x256 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x256.size a
  hwx0_2 : ∀ i : grid0.Coords, EltTy.bits .f32 = 32 ∨ (Rect.block (s := S2048x256) S256x256.size (cc0_transform_2 i) (hinb0_2 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x32x256 : Shape := ⟨3, ![256, 32, 256]⟩
abbrev S_ : Shape := ⟨0, ![]⟩
abbrev S256 : Shape := ⟨1, ![256]⟩
abbrev S1x256 : Shape := ⟨2, ![1, 256]⟩
abbrev S2048x256x1 : Shape := ⟨3, ![2048, 256, 1]⟩
abbrev S2048x256x2 : Shape := ⟨3, ![2048, 256, 2]⟩
abbrev S2048x256x256 : Shape := ⟨3, ![2048, 256, 256]⟩

abbrev nBuf : Space → Nat
  | .hbm => 72
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x32x256, .f32⟩
  | .hbm, ⟨2, _⟩ => ⟨S_, .f32⟩
  | .hbm, ⟨3, _⟩ => ⟨S2048x256, .f32⟩
  | .hbm, ⟨4, _⟩ => ⟨S2048x256, .f32⟩
  | .hbm, ⟨5, _⟩ => ⟨S_, .f32⟩
  | .hbm, ⟨6, _⟩ => ⟨S2048x256, .f32⟩
  | .hbm, ⟨7, _⟩ => ⟨S2048x256, .f32⟩
  | .hbm, ⟨8, _⟩ => ⟨S_, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S_, .i32⟩
  | .hbm, ⟨14, _⟩ => ⟨S_, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .i32⟩
  | .hbm, ⟨21, _⟩ => ⟨S256, .i32⟩
  | .hbm, ⟨22, _⟩ => ⟨S1x256, .i32⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S2048x256, .i32⟩
  | .hbm, ⟨32, _⟩ => ⟨S2048x256, .i1⟩
  | .hbm, ⟨33, _⟩ => ⟨S_, .i32⟩
  | .hbm, ⟨34, _⟩ => ⟨S2048x256, .i32⟩
  | .hbm, ⟨35, _⟩ => ⟨S2048x256, .i32⟩
  | .hbm, ⟨36, _⟩ => ⟨S2048x256, .i32⟩
  | .hbm, ⟨37, _⟩ => ⟨S2048x256, .i32⟩
  | .hbm, ⟨38, _⟩ => ⟨S2048x256x1, .i32⟩
  | .hbm, ⟨39, _⟩ => ⟨S2048x256x1, .i32⟩
  | .hbm, ⟨40, _⟩ => ⟨S2048x256x2, .i32⟩
  | .hbm, ⟨41, _⟩ => ⟨S2048x256x256, .f32⟩
  | .hbm, ⟨42, _⟩ => ⟨S_, .i32⟩
  | .hbm, ⟨43, _⟩ => ⟨S2048x256, .i32⟩
  | .hbm, ⟨44, _⟩ => ⟨S2048x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S2048x256, .i32⟩
  | .hbm, ⟨54, _⟩ => ⟨S2048x256, .i1⟩
  | .hbm, ⟨55, _⟩ => ⟨S_, .i32⟩
  | .hbm, ⟨56, _⟩ => ⟨S2048x256, .i32⟩
  | .hbm, ⟨57, _⟩ => ⟨S2048x256, .i32⟩
  | .hbm, ⟨58, _⟩ => ⟨S2048x256, .i32⟩
  | .hbm, ⟨59, _⟩ => ⟨S2048x256, .i32⟩
  | .hbm, ⟨60, _⟩ => ⟨S2048x256x1, .i32⟩
  | .hbm, ⟨61, _⟩ => ⟨S2048x256x1, .i32⟩
  | .hbm, ⟨62, _⟩ => ⟨S2048x256x2, .i32⟩
  | .hbm, ⟨63, _⟩ => ⟨S2048x256x256, .f32⟩
  | .hbm, ⟨64, _⟩ => ⟨S2048x256, .f32⟩
  | .hbm, ⟨65, _⟩ => ⟨S2048x256x1, .f32⟩
  | .hbm, ⟨66, _⟩ => ⟨S2048x256x256, .f32⟩
  | .hbm, ⟨67, _⟩ => ⟨S2048x256x256, .f32⟩
  | .hbm, ⟨68, _⟩ => ⟨S2048x256x256, .f32⟩
  | .hbm, ⟨69, _⟩ => ⟨S2048x256x256, .f32⟩
  | .hbm, ⟨70, _⟩ => ⟨S_, .f32⟩
  | .hbm, ⟨71, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  bcast_S_S2048x256 : S_.BroadcastsInDim S2048x256 (![] : Fin 0 → Fin S2048x256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S2048x256_0_1 : S1x256.BroadcastsInDim S2048x256 (![0, 1] : Fin 2 → Fin S2048x256.rank)
  bcast_S2048x256_S2048x256x1_0_1 : S2048x256.BroadcastsInDim S2048x256x1 (![0, 1] : Fin 2 → Fin S2048x256x1.rank)
  concatenates_S2048x256x1_S2048x256x1_S2048x256x2_d2 : Shape.Concatenates [S2048x256x1, S2048x256x1] S2048x256x2 2
  bcast_S2048x256x1_S2048x256x256_0_1_2 : S2048x256x1.BroadcastsInDim S2048x256x256 (![0, 1, 2] : Fin 3 → Fin S2048x256x256.rank)
  reducesTo_S2048x256x256_S2048x256_d1 : S2048x256x256.ReducesTo [1] S2048x256
  h_S_ : 0 < S_.numel
  gather_S256x32x256_S2048x256x2_S2048x256x256_2_01_n_n_01_2_11256_wf : GatherDims.WF S256x32x256 S2048x256x2 S2048x256x256 [2] [0, 1] [] [0, 1] [] 2 ![1, 1, 256]

variable [Facts₀]

def gather_S256x32x256_S2048x256x2_S2048x256x256_2_01_n_n_01_2_11256 : GatherDims S256x32x256 S2048x256x2 S2048x256x256 where
  offsetDims := [2]
  collapsedSliceDims := [0, 1]
  operandBatchingDims := []
  startIndicesBatchingDims := []
  startIndexMap := [0, 1]
  indexVectorDim := 2
  sliceSizes := ![1, 1, 256]
  wf := gather_S256x32x256_S2048x256x2_S2048x256x256_2_01_n_n_01_2_11256_wf

class Facts : Prop extends Facts₀ where

variable [Facts]
-- ==== Proof.Spec.lean ====
/-
  The piecewise-linear spline layer as one function of the two argument arrays.

  For an input number x the rescaled abscissa is xs = (x + 2) * 31 / 4; its cell is lf = min 30 (max 0 ⌊xs⌋), an integer
  between 0 and 30, read as the 32-bit word li; the offset inside the cell is tt = xs - lf (it may leave [0, 1] when x is
  outside the grid: the spline extrapolates linearly). With control points W[f, k, o] (feature f, knot k, output o)
  the layer's output at row b and column o is the sum over the features f of the linear interpolation between the two
  neighbouring knots of feature f:
      W[f, lo, o] + tt * (W[f, hi, o] - W[f, lo, o]),   lo = li, hi = li + 1,
  with x = x[b, f]. This module fixes those definitions; it mentions no program.
-/
import Idealize.ShloMosaic.Lib.ValueIdx
import Idealize.ShloMosaic.PureOps.Ideal
import Idealize.ShloMosaic.PureOps.Ideal.Laws

noncomputable section

open scoped BigOperators

namespace Cert.Spline

open Idealize.ShloMosaic Idealize.ShloMosaic.ValueIdx

/-- The shape of the input array: 2048 rows of 256 features. -/
abbrev SX : Shape := ⟨2, ![2048, 256]⟩
/-- The shape of the control-point table: feature, knot, output. -/
abbrev SW : Shape := ⟨3, ![256, 32, 256]⟩

/-- The rescaled abscissa (x + 2) * 31 / 4. -/
def xs (x : EReal) : EReal :=
  Ideal.div ((x + Ideal.ofBits .f32 0x40000000#32) * Ideal.ofBits .f32 0x41F80000#32) (Ideal.ofBits .f32 0x40800000#32)

/-- The cell's lower knot as a number: min 30 (max 0 ⌊xs⌋). -/
def lf (x : EReal) : EReal :=
  min (Ideal.ofBits .f32 0x41F00000#32) (max (Ideal.ofBits .f32 0x00000000#32) (Ideal.liftRound Int.floor (xs x)))

/-- The cell's lower knot as a 32-bit word. -/
def li (x : EReal) : BitVec 32 := Ideal.fptosi 32 (lf x)

/-- The offset inside the cell. -/
def tt (x : EReal) : EReal := xs x - lf x

/-- The lower knot as an index of the knot axis. -/
def lo (x : EReal) : Fin 32 := ⟨min (li x).toNat 30, by omega⟩

/-- The upper knot as an index of the knot axis. -/
def hi (x : EReal) : Fin 32 := ⟨min (li x).toNat 30 + 1, by omega⟩

/-- The weight knot k receives from the number x: 1 - tt at the lower knot, tt at the upper knot, nothing elsewhere
    (the float words are those of 1.0 and 0.0). The layer is also the sum over all knots and features of
    coef * W[f, k, o]; Algebra proves it for real entries. -/
def coef (x : EReal) (k : ℕ) : EReal :=
  if k = (li x).toNat then Ideal.ofBits .f32 0x3F800000#32 - tt x
  else if k = (li x).toNat + 1 then tt x else Ideal.ofBits .f32 0x00000000#32

/-- The layer: at (b, o) the sum over the features of the interpolation between the two neighbouring knots. -/
def G (x : SX.Idx → EReal) (W : SW.Idx → EReal) : SX.Idx → EReal := fun j =>
  ∑ f : Fin 256, (W (ix3 f (lo (x (ix2 (j 0) f))) (j 1))
    + tt (x (ix2 (j 0) f)) * (W (ix3 f (hi (x (ix2 (j 0) f))) (j 1)) - W (ix3 f (lo (x (ix2 (j 0) f))) (j 1))))

end Cert.Spline

end
-- ==== Proof.LibWholeStore.lean ====
/-
  A store that covers a whole buffer, made last, decides what the buffer reads as: after any list of earlier stores
  through rectangles of the same view, reading the buffer back gives the last stored value. The covering rectangle is
  the whole-shape rectangle at zero offsets, however the zeros are spelt (for a rank-2 buffer, the literal ![0, 0]).
  Useful for an accumulator that a loop loads back, adds to, and stores whole on every trip: the buffer after a trip
  reads as that trip's last stored value, whatever the earlier trips stored. Independent of any program.
-/
import Idealize.ShloMosaic.Lib.Pipeline.Value

noncomputable section

namespace Cert.LibWholeStore

open Idealize.ShloMosaic

/-- The literal offsets ![0, 0] of a rank-2 whole-buffer access are the zero offsets. -/
theorem zeros2 : (![0, 0] : Fin 2 → ℕ) = fun _ => 0 := by funext a; fin_cases a <;> rfl

/-- After a store that covers the whole buffer, made last, the buffer reads as the stored value. -/
theorem read_writes_unit_zero {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e

end Cert.LibWholeStore

end
-- ==== Proof.Run.lean ====
/-
  What the kernel's body leaves in its output block, as a value.

  The body zeroes a 256x256 accumulator, walks the 8192 rows of the (knot-major) table in four chunks of 2048 rows,
  adding for each chunk two matrix products of a 256x2048 coefficient array with the chunk, and copies the
  accumulator to the output block. This module reads that off the body's stores at any float instance: the output
  block is the four-fold iterate of "one trip" on the zero array.
-/
import proofs.«122009_j11321533792683_2_alg».proof.Proof.Gen.KernelIdeal.Value
import proofs.«122009_j11321533792683_2_alg».proof.Proof.Spec
import proofs.«122009_j11321533792683_2_alg».proof.Proof.LibWholeStore
import Idealize.ShloMosaic.Lib.Pipeline.Value
import Idealize.ShloMosaic.Lib.ValueIdx
import Idealize.ShloMosaic.PureOps.Ideal.Laws

set_option maxRecDepth 16384

noncomputable section

namespace Cert.Spline.Run

open Cert.KernelIdeal Cert.KernelIdeal.Gen Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

/-! ## The accumulator through the loop, at any float instance

The body zeroes its 256x256 accumulator, then for each of the four chunks of 2048 rows of the table adds two matrix
products to it (each trip loads the accumulator back, adds, stores it whole), and finally copies the accumulator to
the output block. Every store covers the whole buffer, so after each store the buffer reads as the stored value. -/

open Cert.LibWholeStore

/-- The zero offsets as the body's accesses spell them. -/
theorem hz : (![0, 0] : Fin 2 → ℕ) = fun _ => 0 := zeros2

/-- The rows of the table that trip k multiplies by. -/
def chunk (arg2 : Memref sig .tc .vmem S8192x256 .bf16) (X : BufTy.Contents (Elt F) arg2.view.ty) (k : Fin k0_t1_loop.trips) : Vec F S2048x256 .bf16 :=
  View.readAt (Elt F) arg2.view (Rect.unit (s := S8192x256) (k0_off1 k) S2048x256.size (k0_off1_inb k)).toLoadRect X

/-- One trip on the accumulator: the first product added, then the second. -/
def step (v14 : IVec S256x2048 32) (v15 : FVec F S256x2048 .f32) (v40 : IVec S256x2048 32) (k : Fin k0_t1_loop.trips) (Xk : Vec F S2048x256 .bf16) (a : Vec F S256x256 .f32) : Vec F S256x256 .f32 :=
  k0_pay5 v14 v15 v40 k Xk (k0_pay4 v14 v15 v40 k Xk a)

/-- The two stores of one trip, as functions of what the accumulator held when the trip began. -/
theorem tripL_eq (c : Dev nD) (i : grid0.Coords) (arg1 : Memref sig .tc .vmem S256x256 .f32) (harg1 : arg1.IsWhole) (arg2 : Memref sig .tc .vmem S8192x256 .bf16) (harg2 : arg2.IsWhole) (arg3 : Memref sig .tc .vmem S256x256 .f32) (harg3 : arg3.IsWhole) (arg4 : Memref sig .tc .vmem S256x256 .f32) (harg4 : arg4.IsWhole)
    (v14 : IVec S256x2048 32) (v15 : FVec F S256x2048 .f32) (v40 : IVec S256x2048 32) (X : BufTy.Contents (Elt F) arg2.view.ty) (k : Fin k0_t1_loop.trips) (f : BufTy.Contents (Elt F) arg4.view.ty) :
    tripL_k0_t1 (F := F) Variants.none c none i arg1 harg1 arg2 harg2 arg3 harg3 arg4 harg4 v14 v15 v40 X k f
      = [⟨Rect.unit ![0, 0] S256x256.size inb_S256x256_S256x256_0_0, step v14 v15 v40 k (chunk arg2 X k) (arg4.view.read (Elt F) f)⟩,
         ⟨Rect.unit ![0, 0] S256x256.size inb_S256x256_S256x256_0_0, k0_pay4 v14 v15 v40 k (chunk arg2 X k) (arg4.view.read (Elt F) f)⟩] := by
  unfold tripL_k0_t1 trip_k0_t1
  dsimp only
  sl_unfold_run_names
  rw [View.readCov_unit_zero _ hz]
  simp only [View.readAt_eq_ld, View.ld_unit_zero (S := S256x256) hz]
  rfl

/-- The accumulator after the first n trips, from the value a0 it held at loop entry. -/
def accG (arg2 : Memref sig .tc .vmem S8192x256 .bf16) (v14 : IVec S256x2048 32) (v15 : FVec F S256x2048 .f32) (v40 : IVec S256x2048 32)
    (X : BufTy.Contents (Elt F) arg2.view.ty) (a0 : Vec F S256x256 .f32) : ℕ → Vec F S256x256 .f32
  | 0 => a0
  | k + 1 => if h : k < k0_t1_loop.trips then step v14 v15 v40 ⟨k, h⟩ (chunk arg2 X ⟨k, h⟩) (accG arg2 v14 v15 v40 X a0 k)
      else accG arg2 v14 v15 v40 X a0 k

/-- What the accumulator's buffer reads as after the trips before n. -/
theorem read_pb (c : Dev nD) (i : grid0.Coords) (arg1 : Memref sig .tc .vmem S256x256 .f32) (harg1 : arg1.IsWhole) (arg2 : Memref sig .tc .vmem S8192x256 .bf16) (harg2 : arg2.IsWhole) (arg3 : Memref sig .tc .vmem S256x256 .f32) (harg3 : arg3.IsWhole) (arg4 : Memref sig .tc .vmem S256x256 .f32) (harg4 : arg4.IsWhole)
    (v14 : IVec S256x2048 32) (v15 : FVec F S256x2048 .f32) (v40 : IVec S256x2048 32) (X : BufTy.Contents (Elt F) arg2.view.ty) (G : BufTy.Contents (Elt F) arg4.view.ty) :
    ∀ n : ℕ, n ≤ k0_t1_loop.trips →
      arg4.view.read (Elt F) (arg4.view.writes (Elt F) G (pb_k0_t1 (F := F) Variants.none c none i arg1 harg1 arg2 harg2 arg3 harg3 arg4 harg4 v14 v15 v40 X G n))
        = accG arg2 v14 v15 v40 X (arg4.view.read (Elt F) G) n
  | 0, _ => by rw [pb_k0_t1.eq_1]; rfl
  | k + 1, hk => by
    have h : k < k0_t1_loop.trips := hk
    have ih := read_pb c i arg1 harg1 arg2 harg2 arg3 harg3 arg4 harg4 v14 v15 v40 X G k (Nat.le_of_lt h)
    have hs := pb_k0_t1_succ (F := F) Variants.none c none i arg1 harg1 arg2 harg2 arg3 harg3 arg4 harg4 v14 v15 v40 X G ⟨k, h⟩
    rw [show (⟨k, h⟩ : Fin k0_t1_loop.trips).val + 1 = k + 1 from rfl] at hs
    rw [hs, tripL_eq, accG, dif_pos h, ← ih]
    exact read_writes_unit_zero _ _ hz _ _ _

theorem trips_eq : k0_t1_loop.trips = 4 := by decide

/-- WHAT THE BODY LEAVES IN THE OUTPUT BLOCK: the accumulator after the four trips, started from the zero array, of
    the input block x0 and the whole table x1. -/
theorem out_eq (c : Dev nD) (i : grid0.Coords) (arg1 : Memref sig .tc .vmem S256x256 .f32) (harg1 : arg1.IsWhole) (arg2 : Memref sig .tc .vmem S8192x256 .bf16) (harg2 : arg2.IsWhole) (arg3 : Memref sig .tc .vmem S256x256 .f32) (harg3 : arg3.IsWhole) (arg4 : Memref sig .tc .vmem S256x256 .f32) (harg4 : arg4.IsWhole) (x0 : Vec F S256x256 .f32) (x1 : Vec F S8192x256 .bf16) :
    out0_A_2 c i arg1 harg1 arg2 harg2 arg3 harg3 arg4 harg4 x0 x1
      = accG arg2 (k0_pay8 x0) (k0_pay9 x0) k0_pay10 (harg2.unread x1) (k0_pay1 k0_pay11) k0_t1_loop.trips := by
  unfold out0_A_2 kernelRun0_A
  dsimp only
  sl_unfold_run_names
  rw [read_writes_unit_zero _ _ hz]
  simp only [View.readAt_eq_ld, View.ld_unit_zero (S := S256x256) hz, harg1.read_unread]
  rw [View.writes_append, read_pb c i arg1 harg1 arg2 harg2 arg3 harg3 arg4 harg4 _ _ _ _ _ _ (Nat.le_refl _),
    read_writes_unit_zero _ _ hz]

/-- The chunk of trip k is rows 2048 k … 2048 k + 2047 of the table. -/
theorem chunk_unread (arg2 : Memref sig .tc .vmem S8192x256 .bf16) (harg2 : arg2.IsWhole) (x1 : Vec F S8192x256 .bf16) (k : Fin k0_t1_loop.trips) :
    chunk arg2 (harg2.unread x1) k = View.ld x1 (Rect.unit (s := S8192x256) (k0_off1 k) S2048x256.size (k0_off1_inb k)) := by
  unfold chunk
  rw [View.readAt_eq_ld, harg2.read_unread]

end Cert.Spline.Run
end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.Algebra.lean ====
/-
  The number facts and the algebraic law of the piecewise-linear spline layer.

  * The single-precision words in the specification are the numbers 30, 31, 4 (with 2, 1, 0 known already).
  * For EVERY extended real x the cell number lf x = min 30 (max 0 ⌊xs x⌋) is one of the integers 0, …, 30 (at minus
    infinity it is 0, at plus infinity it is 30), so the 32-bit word li x is that integer and its value is at most 30;
    hence the two knot indices lo and hi are li and li + 1 without clamping.
  * For a real x the rescaled abscissa, the offset and every interpolation weight are real numbers.
  * The law: for real inputs and real control points, the sum over all 32 * 256 (knot, feature) pairs of
    coef * W regroups as the sum over the features of the interpolation W[lo] + t * (W[hi] - W[lo]): for one feature
    only the two knots lo and hi carry a nonzero weight, 1 - t and t.
-/
import proofs.«122009_j11321533792683_2_alg».proof.Proof.Spec
import proofs.«122009_j11321533792683_2_alg».proof.Proof.LibReal
import proofs.«122009_j11321533792683_2_alg».proof.Proof.LibTileSum

noncomputable section

open scoped BigOperators

namespace Cert.Spline

open Idealize.ShloMosaic Idealize.ShloMosaic.ValueIdx
open Cert.LibReal

/-! ## The float words -/

theorem ofBits_thirty : Ideal.ofBits .f32 0x41F00000#32 = ((30 : ℝ) : EReal) := by
  simp [Ideal.ofBits, Ideal.ieee]
  rw [← EReal.coe_mul]; congr 1; norm_num

theorem ofBits_thirtyone : Ideal.ofBits .f32 0x41F80000#32 = ((31 : ℝ) : EReal) := by
  simp [Ideal.ofBits, Ideal.ieee]
  rw [← EReal.coe_mul]; congr 1; norm_num

theorem ofBits_four : Ideal.ofBits .f32 0x40800000#32 = ((4 : ℝ) : EReal) := by
  simp [Ideal.ofBits, Ideal.ieee]
  rw [← EReal.coe_mul]; congr 1; norm_num

/-! ## The cell number is one of 0, …, 30 -/

/-- The smaller of two real numbers, taken in the extended reals. -/
private theorem coe_min (a b : ℝ) : min (a : EReal) (b : EReal) = ((min a b : ℝ) : EReal) :=
  (EReal.coe_strictMono.monotone.map_min).symm

/-- Clamping any extended real's floor to [0, 30] gives an integer between 0 and 30. -/
private theorem clamp_int (y : EReal) :
    ∃ n : ℤ, 0 ≤ n ∧ n ≤ 30 ∧
      min (Ideal.ofBits .f32 0x41F00000#32) (max (Ideal.ofBits .f32 0x00000000#32) (Ideal.liftRound Int.floor y))
        = ((n : ℝ) : EReal) := by
  rw [ofBits_thirty, Ideal.ofBits_zero_f32]
  induction y using EReal.rec with
  | bot =>
    refine ⟨0, le_refl _, by norm_num, ?_⟩
    rw [Ideal.liftRound_bot, max_eq_left bot_le, min_eq_right (by exact_mod_cast (by norm_num : (0 : ℝ) ≤ 30))]
    norm_num
  | top =>
    refine ⟨30, by norm_num, le_refl _, ?_⟩
    rw [Ideal.liftRound_top, max_eq_right le_top, min_eq_left le_top]
    norm_num
  | coe r =>
    refine ⟨min 30 (max 0 ⌊r⌋), le_min (by norm_num) (le_max_left _ _), min_le_left _ _, ?_⟩
    rw [Ideal.liftRound_coe, ← EReal.coe_zero, coe_max, coe_min]
    congr 1
    push_cast
    rfl

/-- The cell number of every extended real is an integer between 0 and 30. -/
theorem lf_int (x : EReal) : ∃ n : ℤ, 0 ≤ n ∧ n ≤ 30 ∧ lf x = ((n : ℝ) : EReal) := clamp_int (xs x)

/-- The 32-bit word of an integer between 0 and 30 given as a number. -/
private theorem fptosi_int (n : ℤ) (h0 : 0 ≤ n) (h30 : n ≤ 30) :
    (Ideal.fptosi 32 ((n : ℝ) : EReal)).toNat = n.toNat := by
  unfold Ideal.fptosi
  rw [Ideal.toIntClamped_coe]
  have hf : (if (0 : ℝ) ≤ (n : ℝ) then ⌊(n : ℝ)⌋ else ⌈(n : ℝ)⌉) = n := by
    rw [if_pos (by exact_mod_cast h0), Int.floor_intCast]
  rw [hf, BitVec.toNat_ofInt]
  omega

theorem li_toNat_le (x : EReal) : (li x).toNat ≤ 30 := by
  obtain ⟨n, h0, h30, hn⟩ := lf_int x
  unfold li
  rw [hn, fptosi_int n h0 h30]
  omega

/-! ## Real inputs give real numbers -/

theorem xs_real {x : EReal} (h : IsReal x) : IsReal (xs x) := by
  unfold xs
  rw [ofBits_four, Ideal.div_coe (by norm_num : (4 : ℝ) ≠ 0)]
  exact ((h.add (ieee_real _ (by decide))).mul (ieee_real _ (by decide))).mul (IsReal.coe _)

theorem lf_real (x : EReal) : IsReal (lf x) := by
  obtain ⟨n, _, _, hn⟩ := lf_int x
  exact ⟨(n : ℝ), hn⟩

theorem tt_real {x : EReal} (h : IsReal x) : IsReal (tt x) := (xs_real h).sub (lf_real x)

theorem coef_real {x : EReal} (h : IsReal x) (k : ℕ) : IsReal (coef x k) := by
  unfold coef
  split_ifs
  · rw [ofBits_one]; exact IsReal.one.sub (tt_real h)
  · exact tt_real h
  · rw [Ideal.ofBits_zero_f32]; exact IsReal.zero

theorem sub_self_real {a : EReal} (h : IsReal a) : a - a = 0 := by
  obtain ⟨r, rfl⟩ := h
  rw [← EReal.coe_sub, sub_self, EReal.coe_zero]

/-! ## The two knot indices -/

theorem lo_val (x : EReal) : (lo x).val = (li x).toNat := by
  have := li_toNat_le x
  show min (li x).toNat 30 = (li x).toNat
  omega

theorem hi_val (x : EReal) : (hi x).val = (li x).toNat + 1 := by
  have := li_toNat_le x
  show min (li x).toNat 30 + 1 = (li x).toNat + 1
  omega

/-! ## The law -/

/-- For one real number and 32 real control points, the weighted sum over the knots is the interpolation between the
    two neighbouring knots. -/
theorem knot_sum (x : EReal) (w : Fin 32 → EReal) (hx : IsReal x) (hw : ∀ k, IsReal (w k)) :
    ∑ k : Fin 32, coef x k.val * w k = w (lo x) + tt x * (w (hi x) - w (lo x)) := by
  have hlo := lo_val x
  have hhi := hi_val x
  have hne : lo x ≠ hi x := fun e => by
    have := congrArg Fin.val e
    omega
  rw [Fintype.sum_eq_add (lo x) (hi x) hne]
  · have c1 : coef x (lo x).val = 1 - tt x := by
      unfold coef
      rw [if_pos hlo, ofBits_one]
    have c2 : coef x (hi x).val = tt x := by
      unfold coef
      rw [if_neg (by omega), if_pos hhi]
    rw [c1, c2]
    obtain ⟨t, ht⟩ := tt_real hx
    obtain ⟨a, ha⟩ := hw (lo x)
    obtain ⟨b, hb⟩ := hw (hi x)
    rw [ht, ha, hb]
    have : ((1 - t) * a + t * b : ℝ) = a + t * (b - a) := by ring
    exact_mod_cast this
  · intro k hk
    have h1 : k.val ≠ (li x).toNat := fun e => hk.1 (Fin.ext (by omega))
    have h2 : k.val ≠ (li x).toNat + 1 := fun e => hk.2 (Fin.ext (by omega))
    unfold coef
    rw [if_neg h1, if_neg h2, Ideal.ofBits_zero_f32, zero_mul]

theorem spline_sum (x : Fin 256 → EReal) (W : Fin 256 → Fin 32 → EReal) (hx : ∀ f, IsReal (x f)) (hW : ∀ f k, IsReal (W f k)) :
    ∑ q : Fin 8192, coef (x ⟨q.val % 256, Nat.mod_lt _ (by decide)⟩) (q.val / 256)
        * W ⟨q.val % 256, Nat.mod_lt _ (by decide)⟩ ⟨q.val / 256, by have := q.isLt; omega⟩
      = ∑ f : Fin 256, (W f (lo (x f)) + tt (x f) * (W f (hi (x f)) - W f (lo (x f)))) := by
  have h1 := TileSum.sum_tiles (T := 32) (B := 256) (M := EReal)
    (fun q : Fin 8192 => coef (x ⟨q.val % 256, Nat.mod_lt _ (by decide)⟩) (q.val / 256)
        * W ⟨q.val % 256, Nat.mod_lt _ (by decide)⟩ ⟨q.val / 256, by have := q.isLt; omega⟩)
  refine h1.symm.trans ?_
  rw [Finset.sum_comm]
  refine Fintype.sum_congr _ _ fun f => ?_
  rw [← knot_sum (x f) (W f) (hx f) (hW f)]
  refine Fintype.sum_congr _ _ fun k => ?_
  have hm : (k.val * 256 + f.val) % 256 = f.val := by have := f.isLt; omega
  have hd : (k.val * 256 + f.val) / 256 = k.val := by have := f.isLt; omega
  have e1 : (⟨(k.val * 256 + f.val) % 256, Nat.mod_lt _ (by decide)⟩ : Fin 256) = f := Fin.ext hm
  have e2 : ∀ h, (⟨(k.val * 256 + f.val) / 256, h⟩ : Fin 32) = k := fun _ => Fin.ext hd
  show coef (x ⟨(k.val * 256 + f.val) % 256, _⟩) ((k.val * 256 + f.val) / 256)
        * W ⟨(k.val * 256 + f.val) % 256, _⟩ ⟨(k.val * 256 + f.val) / 256, _⟩ = _
  rw [e1, e2, hd]

end Cert.Spline

end
-- ==== Proof.Acc.lean ====
/-
  The output block at an entry, at the exact instance.

  With exact extended-real arithmetic the narrowing to bf16 is the identity, so the second coefficient array of a
  trip (the coefficient minus its own rounding) is a real number minus itself, zero, and its product contributes
  nothing. What is left is, for row b and column o, the sum over the four chunks and the 2048 rows of a chunk of
      coefficient(b, position) * table(2048 * chunk + position, o),
  which is the sum over all 8192 rows q = 256 * knot + feature of the knot-major table.
-/
import proofs.«122009_j11321533792683_2_alg».proof.Proof.Run
import proofs.«122009_j11321533792683_2_alg».proof.Proof.LibDot
import proofs.«122009_j11321533792683_2_alg».proof.Proof.LibReal
import proofs.«122009_j11321533792683_2_alg».proof.Proof.LibTileSum
import proofs.«122009_j11321533792683_2_alg».proof.Proof.Algebra

set_option maxRecDepth 16384

noncomputable section

open scoped BigOperators

namespace Cert.Spline.Acc

open Cert.KernelIdeal Cert.KernelIdeal.Gen Idealize.ShloMosaic Idealize.ShloMosaic.TcCoe Idealize.SL.Sem
open Idealize.ShloMosaic.ValueIdx
open Cert.LibReal Cert.Spline.Run

/-! ## One trip at an entry, at the exact instance -/

theorem plainDot : Cert.LibDot.IsPlain (M := 256) (K := 2048) (N := 256) dot_S256x2048_S2048x256_S256x256_1_0_0_1_n_n :=
  ⟨rfl, rfl, rfl, rfl, rfl, rfl⟩

/-- The first product of a trip: the accumulator plus, at (b, o), the sum over the 2048 columns p of the coefficient
    array at (b, p) times the chunk at (p, o). -/
theorem pay4_apply (v14 : IVec S256x2048 32) (v15 : FVec Ideal S256x2048 .f32) (v40 : IVec S256x2048 32) (k : Fin k0_t1_loop.trips)
    (Xk : Vec Ideal S2048x256 .bf16) (a : Vec Ideal S256x256 .f32) (b o : Fin 256) :
    k0_pay4 (F := Ideal) v14 v15 v40 k Xk a (ix2 b o)
      = a (ix2 b o) + ∑ p : Fin 2048, k0_pay2 (F := Ideal) v14 v15 v40 k (ix2 b p) * Xk (ix2 p o) := by
  unfold k0_pay4 k0_pay3
  rw [shapeCast_self, shapeCast_self]
  show a (ix2 b o) + _ = _
  congr 1
  exact Cert.LibDot.matmul_zero_apply _ plainDot none _ _ b o

/-- The second product of a trip multiplies the chunk by the coefficient array minus itself. -/
theorem pay5_apply (v14 : IVec S256x2048 32) (v15 : FVec Ideal S256x2048 .f32) (v40 : IVec S256x2048 32) (k : Fin k0_t1_loop.trips)
    (Xk : Vec Ideal S2048x256 .bf16) (a : Vec Ideal S256x256 .f32) (b o : Fin 256) :
    k0_pay5 (F := Ideal) v14 v15 v40 k Xk a (ix2 b o)
      = a (ix2 b o) + ∑ p : Fin 2048, (k0_pay2 (F := Ideal) v14 v15 v40 k (ix2 b p) - k0_pay2 (F := Ideal) v14 v15 v40 k (ix2 b p)) * Xk (ix2 p o) := by
  unfold k0_pay5 k0_pay3
  rw [shapeCast_self, shapeCast_self]
  show a (ix2 b o) + _ = _
  congr 1
  exact Cert.LibDot.matmul_zero_apply _ plainDot none _ _ b o

theorem trip_lt (k : Fin k0_t1_loop.trips) : k.val < 4 := Nat.lt_of_lt_of_le k.isLt (Nat.le_of_eq trips_eq)

/-- Column o of the table below row 8192, as a function of the row number. -/
def col (x1 : Vec Ideal S8192x256 .bf16) (o : Fin 256) (q : ℕ) : EReal := if h : q < 8192 then x1 (ix2 ⟨q, h⟩ o) else 0

/-- Row p of chunk k is row 2048 k + p of the table. -/
theorem chunk_apply (x1 : Vec Ideal S8192x256 .bf16) (k : Fin k0_t1_loop.trips) (p : Fin 2048) (o : Fin 256) :
    View.ld x1 (Rect.unit (s := S8192x256) (k0_off1 k) S2048x256.size (k0_off1_inb k)) (ix2 p o) = col x1 o (2048 * k.val + p.val) := by
  have hk := trip_lt k
  have hlt : 2048 * k.val + p.val < 8192 := by have := p.isLt; omega
  unfold col
  rw [dif_pos hlt]
  show x1 _ = x1 _
  congr 1
  funext a
  apply Fin.ext
  have ho := k0_off1_eq k
  match a with
  | ⟨0, _⟩ => show (k0_off1 k) 0 + 1 * p.val = 2048 * k.val + p.val; rw [ho]; simp
  | ⟨1, _⟩ => show (k0_off1 k) 1 + 1 * o.val = o.val; rw [ho]; simp

/-- Feature q mod 256 of row b of the input block. -/
def xrow (x0 : Vec Ideal S256x256 .f32) (b : Fin 256) (q : ℕ) : EReal := x0 (ix2 b ⟨q % 256, Nat.mod_lt _ (by decide)⟩)

/-- The (q)-th term of the contraction over the knot-major (knot, feature) axis. -/
def term (x0 : Vec Ideal S256x256 .f32) (x1 : Vec Ideal S8192x256 .bf16) (b o : Fin 256) (q : ℕ) : EReal :=
  coef (xrow x0 b q) (q / 256) * col x1 o q

section
variable (x0 : Vec Ideal S256x256 .f32) (hx0 : ∀ j, IsReal (x0 j)) (x1 : Vec Ideal S8192x256 .bf16)
  (hpay2 : ∀ (k : Fin k0_t1_loop.trips) (b : Fin 256) (p : Fin 2048),
    k0_pay2 (F := Ideal) (k0_pay8 x0) (k0_pay9 x0) k0_pay10 k (ix2 b p) = coef (xrow x0 b p.val) (8 * k.val + p.val / 256))

include hx0 hpay2 in
/-- One trip at an entry: the second product vanishes (a real coefficient minus itself is zero), the first adds the
    2048 terms of the trip's chunk. -/
theorem step_apply (k : Fin k0_t1_loop.trips) (a : Vec Ideal S256x256 .f32) (b o : Fin 256) :
    step (k0_pay8 x0) (k0_pay9 x0) k0_pay10 k (View.ld x1 (Rect.unit (s := S8192x256) (k0_off1 k) S2048x256.size (k0_off1_inb k))) a (ix2 b o)
      = a (ix2 b o) + ∑ p : Fin 2048, term x0 x1 b o (2048 * k.val + p.val) := by
  unfold step
  rw [pay5_apply, pay4_apply]
  have hz0 : ∑ p : Fin 2048, (k0_pay2 (F := Ideal) (k0_pay8 x0) (k0_pay9 x0) k0_pay10 k (ix2 b p) - k0_pay2 (F := Ideal) (k0_pay8 x0) (k0_pay9 x0) k0_pay10 k (ix2 b p))
      * View.ld x1 (Rect.unit (s := S8192x256) (k0_off1 k) S2048x256.size (k0_off1_inb k)) (ix2 p o) = 0 :=
    Finset.sum_eq_zero fun p _ => by
      rw [hpay2, sub_self_real (coef_real (show IsReal (xrow x0 b p.val) from hx0 _) _), zero_mul]
  rw [hz0, add_zero]
  congr 1
  refine Finset.sum_congr rfl fun p _ => ?_
  rw [hpay2, chunk_apply]
  unfold term
  have h1 : (2048 * k.val + p.val) / 256 = 8 * k.val + p.val / 256 := by omega
  have h2 : xrow x0 b (2048 * k.val + p.val) = xrow x0 b p.val := by
    unfold xrow
    congr 2
    exact Fin.ext (by show (2048 * k.val + p.val) % 256 = p.val % 256; omega)
  rw [h1, h2]

include hx0 hpay2 in
/-- The accumulator after n trips at an entry: its entry at loop entry plus the terms of the first n chunks. -/
theorem accG_apply (arg2 : Memref sig .tc .vmem S8192x256 .bf16) (harg2 : arg2.IsWhole) (a0 : Vec Ideal S256x256 .f32) (b o : Fin 256) :
    ∀ n : ℕ, n ≤ k0_t1_loop.trips →
      accG arg2 (k0_pay8 x0) (k0_pay9 x0) k0_pay10 (harg2.unread x1) a0 n (ix2 b o)
        = a0 (ix2 b o) + ∑ k ∈ Finset.range n, ∑ p : Fin 2048, term x0 x1 b o (2048 * k + p.val)
  | 0, _ => by rw [accG, Finset.sum_range_zero, add_zero]
  | k + 1, hk => by
    have h : k < k0_t1_loop.trips := hk
    rw [accG, dif_pos h, chunk_unread, step_apply x0 hx0 x1 hpay2, accG_apply arg2 harg2 a0 b o k (Nat.le_of_lt h),
      Finset.sum_range_succ, add_assoc]

include hx0 hpay2 in
/-- THE OUTPUT BLOCK AT AN ENTRY: the sum over the 8192 (knot, feature) pairs of the coefficient times the table. -/
theorem out_apply (c : Dev nD) (i : grid0.Coords) (arg1 : Memref sig .tc .vmem S256x256 .f32) (harg1 : arg1.IsWhole) (arg2 : Memref sig .tc .vmem S8192x256 .bf16) (harg2 : arg2.IsWhole) (arg3 : Memref sig .tc .vmem S256x256 .f32) (harg3 : arg3.IsWhole) (arg4 : Memref sig .tc .vmem S256x256 .f32) (harg4 : arg4.IsWhole) (b o : Fin 256) :
    out0_A_2 c i arg1 harg1 arg2 harg2 arg3 harg3 arg4 harg4 x0 x1 (ix2 b o) = ∑ q : Fin 8192, term x0 x1 b o q.val := by
  rw [out_eq, accG_apply x0 hx0 x1 hpay2 arg2 harg2 _ b o _ (Nat.le_refl _)]
  have h0 : k0_pay1 (F := Ideal) k0_pay11 (ix2 b o) = 0 := by
    unfold k0_pay1 k0_pay11
    rw [shapeCast_self]
    exact Ideal.ofBits_zero_f32
  rw [h0, zero_add, trips_eq, ← Fin.sum_univ_eq_sum_range (fun k => ∑ p : Fin 2048, term x0 x1 b o (2048 * k + p.val)) 4]
  rw [← TileSum.sum_tiles (T := 4) (B := 2048) (fun q : Fin (4 * 2048) => term x0 x1 b o q.val)]
  refine Finset.sum_congr rfl fun t _ => Finset.sum_congr rfl fun p _ => ?_
  show term x0 x1 b o (2048 * t.val + p.val) = term x0 x1 b o (t.val * 2048 + p.val)
  rw [Nat.mul_comm]

end

end Cert.Spline.Acc
end
-- ==== Proof.Coef.lean ====
/-
  The kernel's pure values read at an index, at the exact instance (a float an extended real).

  For a 256 x 256 block x of inputs the kernel forms, pointwise, the rescaled abscissa xs, the clamped cell lf and its
  word li, and the offset tt = xs - lf; it repeats li and tt eight times along the columns, so column p of the
  256 x 2048 arrays reads column p % 256 of the block. Column p also carries its group number p / 256 (a floor division
  whose sign correction never fires for 0 ≤ p < 2048). At trip c of the loop (c < 4) the weight array is, at (b, p),
      1 - tt  if  p / 256 + 8 c - li = 0,   tt  if  p / 256 + 8 c - li = 1,   0 otherwise
  in 32-bit arithmetic. All the numbers involved are tiny (p / 256 ≤ 7, c ≤ 3, li ≤ 30), so the two 32-bit tests are the
  tests 8 c + p / 256 = li and 8 c + p / 256 = li + 1 on natural numbers: the weight is Spline.coef at the knot
  8 c + p / 256.
-/
import proofs.«122009_j11321533792683_2_alg».proof.Proof.Gen.KernelIdeal.Skeleton
import proofs.«122009_j11321533792683_2_alg».proof.Proof.Spec
import Idealize.ShloMosaic.Lib.Pipeline.Value
import Idealize.ShloMosaic.Lib.ValueIdx
import Idealize.ShloMosaic.PureOps.Ideal.Laws

noncomputable section

namespace Cert.Spline.Pay

open Idealize.ShloMosaic Idealize.ShloMosaic.ValueIdx
open Cert.KernelIdeal Cert.KernelIdeal.Gen

/-- The column of the 256-wide block that column p of its 8-fold repetition reads. -/
abbrev col (p : Fin 2048) : Fin 256 := ⟨p.val % 256, Nat.mod_lt _ (by decide)⟩

theorem pay6_apply (x0 : Vec Ideal S256x256 .f32) (i : S256x256.Idx) :
    k0_pay6 (F := Ideal) x0 i = Cert.Spline.xs (x0 i) := rfl

theorem pay7_apply (x0 : Vec Ideal S256x256 .f32) (i : S256x256.Idx) :
    k0_pay7 (F := Ideal) x0 i = Cert.Spline.lf (x0 i) := rfl

theorem cat8_apply {α : Type} (v : S256x256.Idx → α)
    (h : Shape.Concatenates [S256x256, S256x256, S256x256, S256x256, S256x256, S256x256, S256x256, S256x256] S256x2048 1)
    (b : Fin 256) (p : Fin 2048) :
    concatenate S256x2048 1 [⟨S256x256, v⟩, ⟨S256x256, v⟩, ⟨S256x256, v⟩, ⟨S256x256, v⟩, ⟨S256x256, v⟩,
      ⟨S256x256, v⟩, ⟨S256x256, v⟩, ⟨S256x256, v⟩] h (ix2 b p) = v (ix2 b (col p)) := by
  refine concatenate_replicate_apply (t := S256x2048) (s₁ := S256x256) 1 8 v h rfl (ix2 b p) (ix2 b (col p)) ?_ ?_
  · rfl
  · intro c hc
    match c, hc with
    | ⟨0, _⟩, _ => rfl
    | ⟨1, _⟩, hc => exact absurd rfl hc

theorem pay8_apply (x0 : Vec Ideal S256x256 .f32) (b : Fin 256) (p : Fin 2048) :
    k0_pay8 (F := Ideal) x0 (ix2 b p) = Cert.Spline.li (x0 (ix2 b ⟨p.val % 256, Nat.mod_lt _ (by decide)⟩)) := by
  unfold k0_pay8
  exact cat8_apply _ _ b p

theorem pay9_apply (x0 : Vec Ideal S256x256 .f32) (b : Fin 256) (p : Fin 2048) :
    k0_pay9 (F := Ideal) x0 (ix2 b p) = Cert.Spline.tt (x0 (ix2 b ⟨p.val % 256, Nat.mod_lt _ (by decide)⟩)) := by
  unfold k0_pay9
  exact cat8_apply _ _ b p

/-- A small nonnegative word divided (signed) by 256 is the word of the quotient of the numbers. -/
theorem divsi_256 (n : Nat) (hn : n < 2048) :
    IntOp.divsi .vector (BitVec.ofNat 32 n) 256#32 = BitVec.ofNat 32 (n / 256) := by
  have hx : (BitVec.ofNat 32 n).msb = false := by
    rw [BitVec.msb_eq_decide]; simp [BitVec.toNat_ofNat]; omega
  have hy : (256#32 : BitVec 32).msb = false := by decide
  unfold IntOp.divsi
  rw [if_neg (by
    intro h
    rcases h with h | ⟨_, h⟩
    · exact absurd h (by decide)
    · exact absurd h (by decide)), BitVec.sdiv_eq, hx, hy]
  apply BitVec.eq_of_toNat_eq
  simp [BitVec.toNat_ofNat]
  omega

/-- The sign-correcting test of a floor division by 256 never fires on a small nonnegative word. -/
theorem floordiv_256 (n : Nat) (hn : n < 2048) :
    Scalar.select
      (IntOp.andi
        (IntOp.cmpi .ne
          (IntOp.subi ((IntOp.cmpi .sgt (BitVec.ofNat 32 n) 0#32).setWidth 32)
            ((IntOp.cmpi .slt (BitVec.ofNat 32 n) 0#32).setWidth 32))
          (Scalar.subi (Scalar.extui (Scalar.cmpi .sgt 256#32 0#32)) (Scalar.extui (Scalar.cmpi .slt 256#32 0#32))))
        (IntOp.cmpi .ne (IntOp.remsi .vector (BitVec.ofNat 32 n) 256#32) 0#32))
      (IntOp.subi (IntOp.divsi .vector (BitVec.ofNat 32 n) 256#32) 1#32)
      (IntOp.divsi .vector (BitVec.ofNat 32 n) 256#32) = BitVec.ofNat 32 (n / 256) := by
  rw [divsi_256 n hn]
  have hc : Scalar.subi (Scalar.extui (Scalar.cmpi .sgt 256#32 0#32)) (Scalar.extui (Scalar.cmpi .slt 256#32 0#32)) = 1#32 := by
    decide
  rw [hc]
  rcases Nat.eq_zero_or_pos n with rfl | hpos
  · decide
  · have hint : (BitVec.ofNat 32 n).toInt = (n : Int) := by
      rw [BitVec.toInt_eq_toNat_of_lt (by simp [BitVec.toNat_ofNat]; omega)]
      simp [BitVec.toNat_ofNat]; omega
    have h0 : (0#32 : BitVec 32).toInt = 0 := by decide
    have hs1 : (0#32 : BitVec 32).slt (BitVec.ofNat 32 n) = true := by
      rw [BitVec.slt, decide_eq_true_eq, hint, h0]; omega
    have hs2 : (BitVec.ofNat 32 n).slt 0#32 = false := by
      rw [BitVec.slt, decide_eq_false_iff_not, hint, h0]; omega
    have h1 : IntOp.cmpi .sgt (BitVec.ofNat 32 n) 0#32 = 1#1 := by
      show BitVec.ofBool ((0#32 : BitVec 32).slt (BitVec.ofNat 32 n)) = 1#1
      rw [hs1]; rfl
    have h2 : IntOp.cmpi .slt (BitVec.ofNat 32 n) 0#32 = 0#1 := by
      show BitVec.ofBool ((BitVec.ofNat 32 n).slt 0#32) = 0#1
      rw [hs2]; rfl
    rw [h1, h2]
    have h3 : IntOp.cmpi .ne (IntOp.subi ((1#1 : BitVec 1).setWidth 32) ((0#1 : BitVec 1).setWidth 32)) 1#32 = 0#1 := by decide
    rw [h3]
    have h4 : ∀ z : BitVec 1, IntOp.andi 0#1 z = 0#1 := by decide
    rw [h4, select_zero]

theorem pay10_apply (b : Fin 256) (p : Fin 2048) :
    k0_pay10 (ix2 b p) = BitVec.ofNat 32 (p.val / 256) := by
  have hi : iota .tc S256x2048 32 [1] iota_S256x2048_d1_w32 (ix2 b p) = BitVec.ofNat 32 p.val :=
    iota_single_apply .tc S256x2048 32 1 iota_S256x2048_d1_w32 (ix2 b p)
  unfold k0_pay10
  refine Eq.trans ?_ (floordiv_256 p.val p.isLt)
  rw [← hi]
  rfl

/-- A Boolean as a one-bit word is the word 1 exactly when it is true. -/
theorem ofBool_eq_one (q : Bool) : (BitVec.ofBool q = 1#1) ↔ q = true := by cases q <;> decide

/-- The number of trips of the loop over the knot groups. -/
theorem trips_eq : k0_t1_loop.trips = 4 := by decide

/-- The 32-bit test "column group + 8 * trip - cell = 0" is the test 8 * trip + group = cell on numbers. -/
theorem test_zero (n c : Nat) (l : BitVec 32) (hn : n < 8) (hc : c < 4) (hl : l.toNat ≤ 30) :
    IntOp.cmpi .eq (IntOp.subi (IntOp.addi (BitVec.ofNat 32 n) (Scalar.muli (Scf.iv 0#32 1#32 c) 8#32)) l) 0#32 = 1#1
      ↔ 8 * c + n = l.toNat := by
  show BitVec.ofBool (((BitVec.ofNat 32 n + (0#32 + BitVec.ofNat 32 c * 1#32) * 8#32) - l) == 0#32) = 1#1 ↔ _
  rw [ofBool_eq_one, beq_iff_eq]
  constructor
  · intro h; bv_omega
  · intro h; bv_omega

/-- The 32-bit test "column group + 8 * trip - cell = 1" is the test 8 * trip + group = cell + 1 on numbers. -/
theorem test_one (n c : Nat) (l : BitVec 32) (hn : n < 8) (hc : c < 4) (hl : l.toNat ≤ 30) :
    IntOp.cmpi .eq (IntOp.subi (IntOp.addi (BitVec.ofNat 32 n) (Scalar.muli (Scf.iv 0#32 1#32 c) 8#32)) l) 1#32 = 1#1
      ↔ 8 * c + n = l.toNat + 1 := by
  show BitVec.ofBool (((BitVec.ofNat 32 n + (0#32 + BitVec.ofNat 32 c * 1#32) * 8#32) - l) == 1#32) = 1#1 ↔ _
  rw [ofBool_eq_one, beq_iff_eq]
  constructor
  · intro h; bv_omega
  · intro h; bv_omega

/-- A select on a one-bit word whose being 1 is equivalent to a decidable statement is the if-then-else on the statement. -/
theorem select_of_iff {α : Type} (w : BitVec 1) (P : Prop) [Decidable P] (h : w = 1#1 ↔ P) (a b : α) :
    Scalar.select w a b = if P then a else b := by
  show (if w = 1#1 then a else b) = _
  by_cases hp : P
  · rw [if_pos hp, if_pos (h.2 hp)]
  · rw [if_neg hp, if_neg (fun e => hp (h.1 e))]

theorem pay2_apply (hli : ∀ x : EReal, (Cert.Spline.li x).toNat ≤ 30) (x0 : Vec Ideal S256x256 .f32)
    (c : Fin k0_t1_loop.trips) (b : Fin 256) (p : Fin 2048) :
    k0_pay2 (F := Ideal) (k0_pay8 x0) (k0_pay9 x0) k0_pay10 c (ix2 b p)
      = Cert.Spline.coef (x0 (ix2 b ⟨p.val % 256, Nat.mod_lt _ (by decide)⟩)) (8 * c.val + p.val / 256) := by
  have hc : c.val < 4 := trips_eq ▸ c.isLt
  have hn : p.val / 256 < 8 := by have := p.isLt; omega
  show Scalar.select
      (IntOp.cmpi .eq (IntOp.subi (IntOp.addi (k0_pay10 (ix2 b p)) (Scalar.muli (Scf.iv 0#32 1#32 c.val) 8#32))
        (k0_pay8 (F := Ideal) x0 (ix2 b p))) 0#32)
      (Ideal.ofBits .f32 0x3F800000#32 - k0_pay9 (F := Ideal) x0 (ix2 b p))
      (Scalar.select
        (IntOp.cmpi .eq (IntOp.subi (IntOp.addi (k0_pay10 (ix2 b p)) (Scalar.muli (Scf.iv 0#32 1#32 c.val) 8#32))
          (k0_pay8 (F := Ideal) x0 (ix2 b p))) 1#32)
        (k0_pay9 (F := Ideal) x0 (ix2 b p)) (Ideal.ofBits .f32 0x00000000#32)) = _
  rw [pay8_apply, pay9_apply, pay10_apply]
  have h0 := test_zero (p.val / 256) c.val (Cert.Spline.li (x0 (ix2 b (col p)))) hn hc (hli _)
  have h1 := test_one (p.val / 256) c.val (Cert.Spline.li (x0 (ix2 b (col p)))) hn hc (hli _)
  rw [select_of_iff _ _ h0, select_of_iff _ _ h1]
  rfl

end Cert.Spline.Pay

end
-- ==== Proof.Block.lean ====
/-
  The kernel's output array as the layer of the argument arrays.

  The host lays the control points out knot-major (row 256 * knot + feature) before the region; the region's eight
  grid points each take a block of 256 input rows and the whole table, and write a block of 256 output rows. Each
  written block is the restriction of one whole-array function (the sum over the 8192 table rows of weight times
  table entry), the eight blocks cover the output, and that function is the interpolation layer when the inputs are
  real numbers.
-/
import proofs.«122009_j11321533792683_2_alg».proof.Proof.Gen.KernelIdeal.Value
import proofs.«122009_j11321533792683_2_alg».proof.Proof.Acc
import proofs.«122009_j11321533792683_2_alg».proof.Proof.Coef
import proofs.«122009_j11321533792683_2_alg».proof.Proof.Algebra
import Idealize.ShloMosaic.Lib.Pipeline.Value
import Idealize.ShloMosaic.Lib.ValueLayout
import Idealize.ShloMosaic.Lib.StableHlo.Run

set_option maxRecDepth 16384

noncomputable section

open scoped BigOperators

namespace Cert.Spline.Block

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.LibReal Cert.Spline.Run Cert.Spline.Acc

variable (m : (ℓ : Loc nD τ sig) → Buf (Elt Ideal) ℓ) (ρ : Dev nD → PrngReg)

/-! ## The table the region finds: the control points re-laid knot-major -/

/-- Row q = 256 * knot + feature of the staged table is the control-point row (feature, knot): the host transposes
    the first two axes, merges them, and narrows (the identity on extended reals). -/
theorem V2_apply (c : Dev nD) (q : Fin 8192) (o : Fin 256) :
    V m c main_v2 (ix2 q o)
      = m ((c : Thread nD τ).loc main_arg1) (ix3 ⟨q.val % 256, Nat.mod_lt _ (by decide)⟩ ⟨q.val / 256, by have := q.isLt; omega⟩ o) := by
  have e : (V m c main_v2 : S8192x256.Idx → EReal)
      = (truncf (F := Ideal) .bf16 (shapeCast S8192x256 (transpose S32x256x256 [1, 0, 2] (m ((c : Thread nD τ).loc main_arg1) : S256x32x256.Idx → EReal) transposes_S256x32x256_S32x256x256_1_0_2)
          shapeCasts_S32x256x256_S8192x256 : FVec Ideal S8192x256 .f32) bitsLt_bf16_f32 : S8192x256.Idx → EReal) := by
    dsimp only [Gen.V, Gen.hostOps0]; after_results; rfl
  rw [e]
  show shapeCast S8192x256 (transpose S32x256x256 [1, 0, 2] (m ((c : Thread nD τ).loc main_arg1) : S256x32x256.Idx → EReal) transposes_S256x32x256_S32x256x256_1_0_2)
    shapeCasts_S32x256x256_S8192x256 (ix2 q o) = _
  have hq := q.isLt
  rw [shapeCast_apply _ shapeCasts_S32x256x256_S8192x256 (ix2 q o)
      (ix3 (⟨q.val / 256, by omega⟩ : Fin 32) (⟨q.val % 256, Nat.mod_lt _ (by decide)⟩ : Fin 256) o)
      (by rw [Shape.rowMajor_val_three, Shape.rowMajor_val_two]
          show (q.val / 256 * 256 + q.val % 256) * 256 + o.val = q.val * 256 + o.val
          have := Nat.div_add_mod q.val 256
          omega)]
  exact transpose_apply _ _ transposes_S256x32x256_S32x256x256_1_0_2 _
    (ix3 (⟨q.val % 256, Nat.mod_lt _ (by decide)⟩ : Fin 256) (⟨q.val / 256, by omega⟩ : Fin 32) o)
    (fun b => match b with | ⟨0, _⟩ => rfl | ⟨1, _⟩ => rfl | ⟨2, _⟩ => rfl)

/-! ## From the blocks to the array -/

/-- The layer in the kernel's arrangement: at (r, o) the sum over the 8192 rows q of the knot-major table W2 of the
    weight of knot q / 256 for feature q % 256 of input row r, times W2[q, o]. -/
def Gk (x : S2048x256.Idx → EReal) (W2 : S8192x256.Idx → EReal) : S2048x256.Idx → EReal := fun i =>
  ∑ q : Fin 8192, coef (x (ix2 (i 0) ⟨q.val % 256, Nat.mod_lt _ (by decide)⟩)) (q.val / 256) * W2 (ix2 q (i 1))

/-- The printed index maps over the eight grid points: the input and output blocks are block row t, the table is
    staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of Gk of the arrays the region finds, when the input array is real. -/
theorem flushed_eq (c : Dev nD) (hX : ∀ i, IsReal (V m c main_arg0 i)) (t : Fin cfg0.N) :
    (dats m 0 c).flushed 2 t = ((cfg0.win 2).blk t).view.read (Elt Ideal) (Gk (V m c main_arg0) (V m c main_v2)) := by
  rw [flushed2_A]
  obtain ⟨e00, e01, e10, e11, e20, e21⟩ := idx_facts t
  funext j
  show out0_A_2 c (grid0.coords t) (ms0_0 t) (hs0_0 t) (ms0_1 t) (hs0_1 t) (ms0_2 t) (hs0_2 t) scM0_0 (Memref.isWhole_whole _) (iblk m c 0 t) (iblk m c 1 t) j
    = Gk (V m c main_arg0) (V m c main_v2) (((cfg0.win 2).blk t).view.emb j)
  have hj : j = ix2 (j 0) (j 1) := eq_ix2 j
  have hx0 : ∀ y : S256x256.Idx, IsReal (iblk m c 0 t y) := fun y => hX _
  have hp := fun (k : Fin k0_t1_loop.trips) (b : Fin 256) (p : Fin 2048) =>
    Cert.Spline.Pay.pay2_apply li_toNat_le (iblk m c 0 t) k b p
  refine (congrArg _ hj).trans ((out_apply (iblk m c 0 t) hx0 (iblk m c 1 t) hp c (grid0.coords t) (ms0_0 t) (hs0_0 t) (ms0_1 t) (hs0_1 t) (ms0_2 t) (hs0_2 t) scM0_0 (Memref.isWhole_whole _) (j 0) (j 1)).trans ?_)
  unfold Gk
  refine Finset.sum_congr rfl fun q _ => ?_
  unfold term
  have hj0 : (j 0).val < 256 := (j 0).isLt
  have ex : xrow (iblk m c 0 t) (j 0) q.val
      = V m c main_arg0 (ix2 ((((cfg0.win 2).blk t).view.emb j) 0) ⟨q.val % 256, Nat.mod_lt _ (by decide)⟩) := by
    unfold xrow
    show V m c main_arg0 (((cfg0.win 0).blk t).view.emb (ix2 (j 0) ⟨q.val % 256, Nat.mod_lt _ (by decide)⟩)) = _
    congr 1
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 256 + 1 * (q.val % 256) = q.val % 256; omega
  have ew : col (iblk m c 1 t) (j 1) q.val = V m c main_v2 (ix2 q ((((cfg0.win 2).blk t).view.emb j) 1)) := by
    unfold col
    rw [dif_pos q.isLt]
    show V m c main_v2 (((cfg0.win 1).blk t).view.emb (ix2 (⟨q.val, q.isLt⟩ : Fin 8192) (j 1))) = _
    congr 1
    funext a; apply Fin.ext
    match a with
    | ⟨0, _⟩ => show win0_1.index t (0 : Fin 2) * 8192 + 1 * q.val = q.val; omega
    | ⟨1, _⟩ => show win0_1.index t (1 : Fin 2) * 256 + 1 * (j 1).val = win0_2.index t (1 : Fin 2) * 256 + 1 * (j 1).val; omega
  rw [ex, ew]

/-- An index of the output array is in point t's block iff each coordinate is in the block's range on its axis. -/
theorem mem_blk (t : Fin cfg0.N) (i : S2048x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v3).slice (win0_2.rect t)).set ↔ _
  rw [View.set_slice_whole, Rect.mem_set_unit]
  exact Iff.rfl

/-- Every row of the output belongs to the block of the point row / 256. -/
theorem cover (i : S2048x256.Idx) : ∃ t : Fin cfg0.N, (cfg0.win 2).flush t = true ∧ i ∈ ((cfg0.win 2).blk t).view.set := by
  have hi0 : (i 0).val < 2048 := (i 0).isLt
  have hi1 : (i 1).val < 256 := (i 1).isLt
  have hN : cfg0.N = 8 := Gen.N_0
  let t : Fin cfg0.N := ⟨(i 0).val / 256, by rw [hN]; omega⟩
  obtain ⟨e00, e01, e10, e11, e20, e21⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- THE OUTPUT ARRAY after the run, for real inputs: the layer G of the two argument arrays. -/
theorem final (c : Dev nD) (hX : ∀ i, IsReal (m ((c : Thread nD τ).loc main_arg0) i)) (hW : ∀ i, IsReal (m ((c : Thread nD τ).loc main_arg1) i)) :
    (dats m 0 c).arrAt 2 cfg0.N = G (m ((c : Thread nD τ).loc main_arg0)) (m ((c : Thread nD τ).loc main_arg1)) := by
  have hXV : ∀ i, IsReal (V m c main_arg0 i) := fun i => by rw [V_main_arg0]; exact hX i
  rw [(dats m 0 c).arrAt_eq_of_cover 2 (Gk (V m c main_arg0) (V m c main_v2)) (fun t _ => flushed_eq m c hXV t) cover]
  funext i
  unfold Gk
  rw [V_main_arg0]
  have hs := spline_sum (fun f : Fin 256 => m ((c : Thread nD τ).loc main_arg0) (ix2 (i 0) f))
    (fun (f : Fin 256) (k : Fin 32) => m ((c : Thread nD τ).loc main_arg1) (ix3 f k (i 1))) (fun f => hX _) (fun f k => hW _)
  refine Eq.trans (Finset.sum_congr rfl fun q _ => ?_) hs
  exact congrArg (_ * ·) (V2_apply m c q (i 1))

/-- The kernel's run with its result named: the layer of the argument arrays, which end unchanged. -/
theorem run (hX : ∀ c : Dev nD, ∀ i, IsReal (m ((c : Thread nD τ).loc main_arg0) i)) (hW : ∀ c : Dev nD, ∀ i, IsReal (m ((c : Thread nD τ).loc main_arg1) i)) :
    θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hX c) (hW c)), (h c).2⟩) (run_blocks m ρ)

end Cert.Spline.Block
end
-- ==== Proof.Ref.lean ====
/-
  The reference program computes the spline layer of Spec.

  The reference rescales each input number x to the abscissa xs = (x + 2) * 31 / 4, clips its floor to [0, 30] (the
  number lf, the word li), keeps the offset tt = xs - lf, gathers from the control-point table W[f, k, o] the two
  neighbouring knots of every feature, interpolates linearly and sums over the features. Read at the exact values,
  every elementwise operation is the Spec's function of the same name at the same index. The two gathers are read by
  hand: a gather with start indices (feature, knot) and a whole slice along the output axis reads, at (b, f, o), the
  table at the two start-index components clamped to their axes and at o. The start-index components pass through a
  "wrap a negative index" selection, which leaves a nonnegative word alone; with the knot word at most 30 (a hypothesis
  here) the clamps do nothing either, so the gathers read W[f, li, o] and W[f, li + 1, o], the Spec's lo and hi.
-/
import proofs.«122009_j11321533792683_2_alg».proof.Proof.Gen.ReferenceIdeal.Read
import proofs.«122009_j11321533792683_2_alg».proof.Proof.Spec
import Idealize.ShloMosaic.Lib.ValueIdx
import Idealize.ShloMosaic.Lib.Pipeline.Value

noncomputable section

open scoped BigOperators

namespace Cert.Spline.Ref

open Cert.ReferenceIdeal Cert.ReferenceIdeal.Gen Cert.ReferenceIdeal.Read Idealize.ShloMosaic Idealize.ShloMosaic.ValueIdx
  Idealize.ShloMosaic.StableHlo

/-! ### The gather at an index -/

/-- The gather's dimension numbers: operand [256, 32, 256], start indices [2048, 256, 2], result [2048, 256, 256]. -/
abbrev gd := gather_S256x32x256_S2048x256x2_S2048x256x256_2_01_n_n_01_2_11256

/-- The gather at (b, f, o): the table at the two start-index components, each read signed and clamped to its axis,
    and at o. Per operand axis the index is the clamped start plus the batching coordinate (none here) plus the offset
    coordinate (only the output axis has one). -/
theorem gather_apply {α : Type} {w : Nat} (X : S256x32x256.Idx → α) (idx : IVec S2048x256x2 w)
    (b : Fin 2048) (f : Fin 256) (o : Fin 256) :
    Host.gather gd X idx (ix3 b f o)
      = X (ix3 (⟨min (idx (ix3 b f (0 : Fin 2))).toInt.toNat 255, by omega⟩ : Fin 256)
            (⟨min (idx (ix3 b f (1 : Fin 2))).toInt.toNat 31, by omega⟩ : Fin 32) o) := by
  unfold Host.gather
  congr 1
  funext a
  refine Fin.ext ?_
  match a with
  | ⟨0, h0⟩ =>
    show gd.start (ix3 b f o) idx 0 + gd.batchCoord (ix3 b f o) 0 + gd.offCoord (ix3 b f o) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gd.startIndexMap from by decide)]
    have hsi : gd.siIdx (ix3 b f o) ⟨List.idxOf (0 : Fin 3) gd.startIndexMap,
        List.idxOf_lt_length_iff.2 (by decide)⟩ = ix3 b f (0 : Fin 2) := by
      funext c; refine Fin.ext ?_
      match c with
      | ⟨0, _⟩ => rfl
      | ⟨1, _⟩ => rfl
      | ⟨2, _⟩ => rfl
    rw [hsi]
    rfl
  | ⟨1, h1⟩ =>
    show gd.start (ix3 b f o) idx 1 + gd.batchCoord (ix3 b f o) 1 + gd.offCoord (ix3 b f o) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gd.startIndexMap from by decide)]
    have hsi : gd.siIdx (ix3 b f o) ⟨List.idxOf (1 : Fin 3) gd.startIndexMap,
        List.idxOf_lt_length_iff.2 (by decide)⟩ = ix3 b f (1 : Fin 2) := by
      funext c; refine Fin.ext ?_
      match c with
      | ⟨0, _⟩ => rfl
      | ⟨1, _⟩ => rfl
      | ⟨2, _⟩ => rfl
    rw [hsi]
    rfl
  | ⟨2, h2⟩ =>
    show gd.start (ix3 b f o) idx 2 + gd.batchCoord (ix3 b f o) 2 + gd.offCoord (ix3 b f o) 2 = _
    rw [GatherDims.batchCoord_eq_zero _ _ _ List.not_mem_nil]
    unfold GatherDims.start
    rw [dif_neg (show ¬ ((2 : Fin 3) ∈ gd.startIndexMap) from by decide)]
    simp only [Nat.add_zero, Nat.zero_add]
    rfl

/-! ### The elementwise operations -/

/-- The type of the input array's contents. -/
abbrev XT := (⟨S2048x256, .f32⟩ : BufTy).Contents (Elt Ideal)
/-- The type of the control-point table's contents. -/
abbrev WT := (⟨S256x32x256, .f32⟩ : BufTy).Contents (Elt Ideal)

/-- The word 0x41F00000 is the number 30. -/
theorem ofBits_thirty : Ideal.ofBits .f32 0x41F00000#32 = ((30 : ℝ) : EReal) := by
  simp [Ideal.ofBits, Ideal.ieee]
  rw [← EReal.coe_mul]; congr 1; norm_num

/-- The integer word 30 converted to a float is the number 30, the same number as the word 0x41F00000. -/
theorem sitofp_thirty : FloatOps.sitofp (F := Ideal) .f32 (30#32 : BitVec 32) = Ideal.ofBits .f32 0x41F00000#32 := by
  rw [ofBits_thirty]
  show (((30#32 : BitVec 32).toInt : ℝ) : EReal) = ((30 : ℝ) : EReal)
  have : (30#32 : BitVec 32).toInt = 30 := by decide
  rw [this]; norm_num

/-- The rescaled abscissa. -/
theorem v5_read (x0 : XT) (i : S2048x256.Idx) : val_main_v5 (F := Ideal) x0 i = xs (x0 i) := by
  rw [val_main_v5_apply, val_main_v3_apply, val_main_v1_apply, val_main_v0_apply, val_main_cst_apply,
    val_main_v2_apply, val_main_cst_0_apply, val_main_v4_apply, val_main_cst_1_apply]
  rfl

/-- The clipped floor. -/
theorem v7_read (x0 : XT) (i : S2048x256.Idx) : val_main_v7 (F := Ideal) x0 i = lf (x0 i) := by
  rw [val_main_v7_apply, val_main_call0_v4_apply, val_main_call0_v3_apply, val_main_c_apply, val_main_call0_v2_apply,
    val_main_call0_v1_apply, val_main_call0_v0_apply, val_main_cst_2_apply, val_main_v6_apply, v5_read, sitofp_thirty]
  rfl

/-- The knot word. -/
theorem v8_read (x0 : XT) (i : S2048x256.Idx) : val_main_v8 (F := Ideal) x0 i = li (x0 i) := by
  rw [val_main_v8_apply, v7_read]
  rfl

/-- The offset inside the cell. -/
theorem v43_read (x0 : XT) (i : S2048x256.Idx) : val_main_v43 (F := Ideal) x0 i = tt (x0 i) := by
  rw [val_main_v43_apply, v5_read, v7_read]
  rfl

/-! ### Words -/

/-- A 32-bit word below 2^31 read signed is its unsigned value. -/
theorem toInt_of_small (w : BitVec 32) (h : w.toNat < 2 ^ 31) : w.toInt = (w.toNat : Int) := by
  rw [BitVec.toInt_eq_toNat_cond, if_pos (by omega)]

/-- A 32-bit word below 2^31 is not negative. -/
theorem cmpi_slt_zero (w : BitVec 32) (h : w.toNat < 2 ^ 31) : IntOp.cmpi .slt w 0#32 = 0#1 := by
  have h1 : w.slt 0#32 = false := by
    rw [BitVec.slt, toInt_of_small w h]
    simp
  show BitVec.ofBool (w.slt 0#32) = 0#1
  rw [h1]; rfl

/-- The feature number as a word, read back signed and clamped, is the feature number. -/
theorem feature_clamp (f : Fin 256) : min (BitVec.ofNat 32 f.val).toInt.toNat 255 = f.val := by
  have h1 : (BitVec.ofNat 32 f.val).toNat = f.val := by rw [BitVec.toNat_ofNat]; omega
  rw [toInt_of_small _ (by omega), h1]
  omega

/-- A knot word at most 30, read back signed and clamped to the knot axis, is the lower knot. -/
theorem lower_clamp (w : BitVec 32) (h : w.toNat ≤ 30) : min w.toInt.toNat 31 = min w.toNat 30 := by
  rw [toInt_of_small _ (by omega)]
  omega

/-- The successor of a knot word at most 30, read back signed and clamped to the knot axis, is the upper knot. -/
theorem upper_clamp (w : BitVec 32) (h : w.toNat ≤ 30) : min (w + 1#32).toInt.toNat 31 = min w.toNat 30 + 1 := by
  have h1 : (w + 1#32).toNat = w.toNat + 1 := by rw [BitVec.toNat_add]; simp; omega
  rw [toInt_of_small _ (by omega), h1]
  omega

/-! ### The start indices -/

/-- The feature numbers as words. -/
theorem v10_read (j : S1x256.Idx) : val_main_v10 (F := Ideal) j = BitVec.ofNat 32 (j 1).val := by
  rw [val_main_v10_apply, val_main_v9_apply]

/-- A feature number as a word is below 2^31. -/
theorem small_feature (j : S1x256.Idx) : (BitVec.ofNat 32 (j 1).val).toNat < 2 ^ 31 := by
  have := idx2_lt1 j
  rw [BitVec.toNat_ofNat]; omega

/-- The wrap of a negative feature number leaves the feature number alone (lower gather). -/
theorem v15_read (j : S1x256.Idx) : val_main_v15 (F := Ideal) j = BitVec.ofNat 32 (j 1).val := by
  rw [val_main_v15_apply, val_main_v12_apply, val_main_v11_apply, val_main_c_3_apply, v10_read,
    cmpi_slt_zero _ (small_feature j), select_zero]

/-- The wrap of a negative feature number leaves the feature number alone (upper gather). -/
theorem v32_read (j : S1x256.Idx) : val_main_v32 (F := Ideal) j = BitVec.ofNat 32 (j 1).val := by
  rw [val_main_v32_apply, val_main_v29_apply, val_main_v28_apply, val_main_c_8_apply, v10_read,
    cmpi_slt_zero _ (small_feature j), select_zero]

/-- Component 0 of the lower start index. -/
theorem v22_read (b : Fin 2048) (f : Fin 256) :
    val_main_v22 (F := Ideal) (ix3 b f (0 : Fin 1)) = BitVec.ofNat 32 f.val := by
  rw [val_main_v22_apply, val_main_v21_apply, v15_read]

/-- Component 0 of the upper start index. -/
theorem v39_read (b : Fin 2048) (f : Fin 256) :
    val_main_v39 (F := Ideal) (ix3 b f (0 : Fin 1)) = BitVec.ofNat 32 f.val := by
  rw [val_main_v39_apply, val_main_v38_apply, v32_read]

/-- The wrap of a negative knot word leaves a knot word at most 30 alone. -/
theorem v20_read (hli : ∀ x : EReal, (li x).toNat ≤ 30) (x0 : XT) (i : S2048x256.Idx) :
    val_main_v20 (F := Ideal) x0 i = li (x0 i) := by
  have := hli (x0 i)
  rw [val_main_v20_apply, val_main_v17_apply, val_main_v16_apply, val_main_c_5_apply, v8_read,
    cmpi_slt_zero _ (by omega), select_zero]

/-- The successor knot word. -/
theorem v27_read (x0 : XT) (i : S2048x256.Idx) : val_main_v27 (F := Ideal) x0 i = li (x0 i) + 1#32 := by
  rw [val_main_v27_apply, val_main_v26_apply, val_main_c_7_apply, v8_read]
  rfl

/-- The wrap of a negative knot word leaves the successor of a knot word at most 30 alone. -/
theorem v37_read (hli : ∀ x : EReal, (li x).toNat ≤ 30) (x0 : XT) (i : S2048x256.Idx) :
    val_main_v37 (F := Ideal) x0 i = li (x0 i) + 1#32 := by
  have := hli (x0 i)
  have h1 : (li (x0 i) + 1#32).toNat = (li (x0 i)).toNat + 1 := by rw [BitVec.toNat_add]; simp; omega
  rw [val_main_v37_apply, val_main_v34_apply, val_main_v33_apply, val_main_c_10_apply, v27_read,
    cmpi_slt_zero _ (by omega), select_zero]

/-- The index a broadcast along a new last axis reads. -/
theorem idx23 (b : Fin 2048) (f : Fin 256) : idx_main_v23 (ix3 b f (0 : Fin 1)) = ix2 b f :=
  funext fun a => Fin.ext (by match a with | ⟨0, _⟩ => rfl | ⟨1, _⟩ => rfl)

/-- Component 1 of the lower start index. -/
theorem v23_read (hli : ∀ x : EReal, (li x).toNat ≤ 30) (x0 : XT) (b : Fin 2048) (f : Fin 256) :
    val_main_v23 (F := Ideal) x0 (ix3 b f (0 : Fin 1)) = li (x0 (ix2 b f)) := by
  rw [val_main_v23_apply, v20_read hli, idx23]

/-- Component 1 of the upper start index. -/
theorem v40_read (hli : ∀ x : EReal, (li x).toNat ≤ 30) (x0 : XT) (b : Fin 2048) (f : Fin 256) :
    val_main_v40 (F := Ideal) x0 (ix3 b f (0 : Fin 1)) = li (x0 (ix2 b f)) + 1#32 := by
  rw [val_main_v40_apply, v37_read hli]
  exact congrArg (fun i => li (x0 i) + 1#32) (idx23 b f)

/-! ### The concatenates -/

/-- Two [2048, 256, 1] arrays joined along the last axis, at last coordinate 0: the first array. -/
theorem concat_left {α : Type} (x₁ x₂ : S2048x256x1.Idx → α) (b : Fin 2048) (f : Fin 256) :
    concatenate S2048x256x2 2 [⟨S2048x256x1, x₁⟩, ⟨S2048x256x1, x₂⟩] concatenates_S2048x256x1_S2048x256x1_S2048x256x2_d2
      (ix3 b f (0 : Fin 2)) = x₁ (ix3 b f (0 : Fin 1)) :=
  concatenate_pair_apply_left (t := S2048x256x2) (s₁ := S2048x256x1) (s₂ := S2048x256x1) 2 x₁ x₂
    concatenates_S2048x256x1_S2048x256x1_S2048x256x2_d2 (ix3 b f (0 : Fin 2)) rfl (ix3 b f (0 : Fin 1))
    (fun c => by match c with | ⟨0, _⟩ => rfl | ⟨1, _⟩ => rfl | ⟨2, _⟩ => rfl)

/-- Two [2048, 256, 1] arrays joined along the last axis, at last coordinate 1: the second array. -/
theorem concat_right {α : Type} (x₁ x₂ : S2048x256x1.Idx → α) (b : Fin 2048) (f : Fin 256) :
    concatenate S2048x256x2 2 [⟨S2048x256x1, x₁⟩, ⟨S2048x256x1, x₂⟩] concatenates_S2048x256x1_S2048x256x1_S2048x256x2_d2
      (ix3 b f (1 : Fin 2)) = x₂ (ix3 b f (0 : Fin 1)) :=
  concatenate_pair_apply_right (t := S2048x256x2) (s₁ := S2048x256x1) (s₂ := S2048x256x1) 2 x₁ x₂
    concatenates_S2048x256x1_S2048x256x1_S2048x256x2_d2 (ix3 b f (1 : Fin 2)) rfl rfl (ix3 b f (0 : Fin 1))
    (fun c hc => by
      match c with
      | ⟨0, _⟩ => rfl
      | ⟨1, _⟩ => rfl
      | ⟨2, _⟩ => exact absurd rfl hc)
    rfl

/-- Component 0 of the lower start index is the feature number. -/
theorem v24_read0 (x0 : XT) (b : Fin 2048) (f : Fin 256) :
    val_main_v24 (F := Ideal) x0 (ix3 b f (0 : Fin 2)) = BitVec.ofNat 32 f.val := by
  unfold val_main_v24
  rw [concat_left, v22_read]

/-- Component 1 of the lower start index is the knot word. -/
theorem v24_read1 (hli : ∀ x : EReal, (li x).toNat ≤ 30) (x0 : XT) (b : Fin 2048) (f : Fin 256) :
    val_main_v24 (F := Ideal) x0 (ix3 b f (1 : Fin 2)) = li (x0 (ix2 b f)) := by
  unfold val_main_v24
  rw [concat_right, v23_read hli]

/-- Component 0 of the upper start index is the feature number. -/
theorem v41_read0 (x0 : XT) (b : Fin 2048) (f : Fin 256) :
    val_main_v41 (F := Ideal) x0 (ix3 b f (0 : Fin 2)) = BitVec.ofNat 32 f.val := by
  unfold val_main_v41
  rw [concat_left, v39_read]

/-- Component 1 of the upper start index is the successor of the knot word. -/
theorem v41_read1 (hli : ∀ x : EReal, (li x).toNat ≤ 30) (x0 : XT) (b : Fin 2048) (f : Fin 256) :
    val_main_v41 (F := Ideal) x0 (ix3 b f (1 : Fin 2)) = li (x0 (ix2 b f)) + 1#32 := by
  unfold val_main_v41
  rw [concat_right, v40_read hli]

/-! ### The gathers -/

/-- The gather at (b, f, o) reads the table at any pair of coordinates equal to the two clamped start indices. -/
theorem gather_read {α : Type} {w : Nat} (X : S256x32x256.Idx → α) (idx : IVec S2048x256x2 w)
    (b : Fin 2048) (f : Fin 256) (o : Fin 256) (p : Fin 256) (q : Fin 32)
    (hp : min (idx (ix3 b f (0 : Fin 2))).toInt.toNat 255 = p.val)
    (hq : min (idx (ix3 b f (1 : Fin 2))).toInt.toNat 31 = q.val) :
    Host.gather gd X idx (ix3 b f o) = X (ix3 p q o) := by
  have e1 : (⟨min (idx (ix3 b f (0 : Fin 2))).toInt.toNat 255, by omega⟩ : Fin 256) = p := Fin.ext hp
  have e2 : (⟨min (idx (ix3 b f (1 : Fin 2))).toInt.toNat 31, by omega⟩ : Fin 32) = q := Fin.ext hq
  rw [gather_apply, e1, e2]

/-- The lower gather reads the table at the feature and the lower knot. -/
theorem v25_read (hli : ∀ x : EReal, (li x).toNat ≤ 30) (x0 : XT) (x1 : WT) (b : Fin 2048) (f : Fin 256) (o : Fin 256) :
    val_main_v25 (F := Ideal) x0 x1 (ix3 b f o) = x1 (ix3 f (lo (x0 (ix2 b f))) o) := by
  unfold val_main_v25
  refine gather_read x1 _ b f o f (lo (x0 (ix2 b f))) ?_ ?_
  · rw [v24_read0]; exact feature_clamp f
  · rw [v24_read1 hli]; exact lower_clamp _ (hli _)

/-- The upper gather reads the table at the feature and the upper knot. -/
theorem v42_read (hli : ∀ x : EReal, (li x).toNat ≤ 30) (x0 : XT) (x1 : WT) (b : Fin 2048) (f : Fin 256) (o : Fin 256) :
    val_main_v42 (F := Ideal) x0 x1 (ix3 b f o) = x1 (ix3 f (hi (x0 (ix2 b f))) o) := by
  unfold val_main_v42
  refine gather_read x1 _ b f o f (hi (x0 (ix2 b f))) ?_ ?_
  · rw [v41_read0]; exact feature_clamp f
  · rw [v41_read1 hli]; exact upper_clamp _ (hli _)

/-! ### The interpolation and the sum over the features -/

/-- The index the offset's two broadcasts read. -/
theorem idx44_46 (b : Fin 2048) (f : Fin 256) (o : Fin 256) : idx_main_v44 (idx_main_v46 (ix3 b f o)) = ix2 b f :=
  funext fun a => Fin.ext (by match a with | ⟨0, _⟩ => rfl | ⟨1, _⟩ => rfl)

/-- One feature's term: the linear interpolation between the two neighbouring knots. -/
theorem v48_read (hli : ∀ x : EReal, (li x).toNat ≤ 30) (x0 : XT) (x1 : WT) (b : Fin 2048) (f : Fin 256) (o : Fin 256) :
    val_main_v48 (F := Ideal) x0 x1 (ix3 b f o)
      = x1 (ix3 f (lo (x0 (ix2 b f))) o)
        + tt (x0 (ix2 b f)) * (x1 (ix3 f (hi (x0 (ix2 b f))) o) - x1 (ix3 f (lo (x0 (ix2 b f))) o)) := by
  rw [val_main_v48_apply, val_main_v47_apply, val_main_v46_apply, val_main_v45_apply, val_main_v44_apply, v43_read,
    v42_read hli, v25_read hli, idx44_46]
  rfl

/-- The index the sum over the features reads. -/
theorem idx49 (b : Fin 2048) (o : Fin 256) (k : Fin 256) : idx_main_v49 (ix2 b o) k = ix3 b k o :=
  funext fun a => Fin.ext (by match a with | ⟨0, _⟩ => rfl | ⟨1, _⟩ => rfl | ⟨2, _⟩ => rfl)

/-- The reference program computes the layer. -/
theorem ref_eq (hli : ∀ x : EReal, (Cert.Spline.li x).toNat ≤ 30)
    (x0 : (⟨Cert.ReferenceIdeal.S2048x256, .f32⟩ : BufTy).Contents (Elt Ideal)) (x1 : (⟨Cert.ReferenceIdeal.S256x32x256, .f32⟩ : BufTy).Contents (Elt Ideal)) :
    Cert.ReferenceIdeal.Read.val_main_v49 (F := Ideal) x0 x1 = Cert.Spline.G x0 x1 := by
  funext j
  obtain ⟨b, o, rfl⟩ : ∃ b o, j = ix2 b o := ⟨j 0, j 1, eq_ix2 j⟩
  rw [val_main_v49_apply, val_main_cst_12_apply]
  show Ideal.ofBits .f32 0x00000000#32 + _ = _
  rw [Ideal.ofBits_zero_f32, zero_add]
  refine Finset.sum_congr rfl fun k _ => ?_
  rw [idx49, v48_read hli]

end Cert.Spline.Ref

end
-- ==== Proof.Finite.lean ====
/-
  From the finiteness test to real entries.

  The precondition computes, for each of the two argument arrays, the test "every |entry| < +inf" (an all-reduction by
  "and" of the entrywise comparison, started at 1) and returns the conjunction of the two tests. When that result is 1,
  both reductions are 1, so every entrywise comparison is 1, and an extended real whose absolute value is below plus
  infinity is a real number. Hence every entry of both arrays is a real number.
-/
import proofs.«122009_j11321533792683_2_alg».proof.Pre_finite_inputs
import proofs.«122009_j11321533792683_2_alg».proof.Proof.LibReal
import Idealize.ShloMosaic.Lib.ReduceAll
import Idealize.ShloMosaic.Lib.ValueIdx

noncomputable section

namespace Cert.Spline

open Idealize.ShloMosaic Idealize.ShloMosaic.ValueIdx
open Cert.LibReal

/-- The rank-0 shape has one index. -/
private instance : Subsingleton Cert.Pre_finite_inputs.S_.Idx := ⟨fun _ _ => funext fun d => d.elim0⟩

theorem reals_of_pre [Cert.Pre_finite_inputs.Facts] (a0 : FVec Ideal Cert.Pre_finite_inputs.S2048x256 .f32) (a1 : FVec Ideal Cert.Pre_finite_inputs.S256x32x256 .f32)
    (h : Cert.Pre_finite_inputs.fn (F := Ideal) a0 a1 = fun _ => 1#1) :
    (∀ i, Cert.LibReal.IsReal (a0 i)) ∧ (∀ i, Cert.LibReal.IsReal (a1 i)) := by
  have h0 := congrFun h ix0
  unfold Cert.Pre_finite_inputs.fn at h0
  dsimp only at h0
  obtain ⟨hA, hB⟩ := IntOp.andi_eq_one.1 h0
  exact ⟨fun i => entry_real a0 _ i (Host.reduce_andi_all _ _ _ _ ix0 hA i),
    fun i => entry_real a1 _ i (Host.reduce_andi_all _ _ _ _ ix0 hB i)⟩

end Cert.Spline

end
-- ==== Proof.lean ====
/-
  The certificate of the spline (KAN) layer kernel against its jnp reference.

  For x : [2048, 256] and control points W : [256 features, 32 knots, 256 outputs], each input number selects a cell
  li in 0..30 of its feature's knot grid and an offset t inside it; the layer's output at (b, o) is the sum over the
  features of the interpolation W[f, li, o] + t * (W[f, li + 1, o] - W[f, li, o]). The reference computes exactly
  this with two gathers. The kernel instead builds, for every (row, knot, feature), the weight that knot receives
  (1 - t at li, t at li + 1, 0 elsewhere) and contracts it against the knot-major table on the matrix unit, in four
  chunks, adding a second product with the weights' bf16 rounding error — which is zero when floats are exact.
  At the exact instance the two are equal for finite inputs: the weighted sum over the knots has two nonzero terms,
  (1 - t) * L + t * U = L + t * (U - L) for real t, L, U.

  The three frames: the kernel's two are the frame certificates of its body's run; the reference's is its run with
  the result dropped. The idealization's one ledger entry (a widening of a narrowing is the identity at the exact
  instance, the rounding at the word instance) is the rule's own statement.
-/
import proofs.«122009_j11321533792683_2_alg».proof.Defs
import proofs.«122009_j11321533792683_2_alg».proof.Proof.Gen.Kernel
import proofs.«122009_j11321533792683_2_alg».proof.Proof.Gen.Kernel.Skeleton
import proofs.«122009_j11321533792683_2_alg».proof.Proof.Gen.Kernel.Loops
import proofs.«122009_j11321533792683_2_alg».proof.Proof.Gen.Kernel.Launch
import proofs.«122009_j11321533792683_2_alg».proof.Proof.Gen.Kernel.Points
import proofs.«122009_j11321533792683_2_alg».proof.Proof.Gen.Kernel.Frame
import proofs.«122009_j11321533792683_2_alg».proof.Proof.Gen.KernelIdeal
import proofs.«122009_j11321533792683_2_alg».proof.Proof.Gen.KernelIdeal.Skeleton
import proofs.«122009_j11321533792683_2_alg».proof.Proof.Gen.KernelIdeal.Loops
import proofs.«122009_j11321533792683_2_alg».proof.Proof.Gen.KernelIdeal.Launch
import proofs.«122009_j11321533792683_2_alg».proof.Proof.Gen.KernelIdeal.Points
import proofs.«122009_j11321533792683_2_alg».proof.Proof.Gen.KernelIdeal.Frame
import proofs.«122009_j11321533792683_2_alg».proof.Proof.Gen.ReferenceIdeal
import proofs.«122009_j11321533792683_2_alg».proof.Proof.Gen.Pre_finite_inputs
import proofs.«122009_j11321533792683_2_alg».proof.Proof.Gen.KernelIdeal.Value
import proofs.«122009_j11321533792683_2_alg».proof.Proof.Gen.ReferenceIdeal.Run
import proofs.«122009_j11321533792683_2_alg».proof.Proof.Gen.ReferenceIdeal.Read
import proofs.«122009_j11321533792683_2_alg».proof.Proof.Block
import proofs.«122009_j11321533792683_2_alg».proof.Proof.Ref
import proofs.«122009_j11321533792683_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: widening what was narrowed to bf16 is the identity on extended reals, and
    the rounding through bf16 on words. -/
theorem preserves : Cert.preserves_Kernel_KernelIdeal :=
  IdealRules.truncf_extf.statement Cert.KernelIdeal.S256x2048 .f32 .bf16

/-- For finite inputs both programs end with the layer of the argument arrays. -/
theorem algebraic : Cert.algebraic_KernelIdeal_ReferenceIdeal := by
  intro m ρ m' ρ' hpre hagree
  have hreal := fun c : Dev Cert.KernelIdeal.nD => Cert.Spline.reals_of_pre _ _ (hpre c)
  refine ⟨fun c => Cert.Spline.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Spline.Block.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.Spline.Ref.ref_eq Cert.Spline.li_toNat_le, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
